-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024x64 : Shape := ⟨3, ![1024, 1024, 64]⟩
abbrev S127x320 : Shape := ⟨2, ![127, 320]⟩
abbrev S127 : Shape := ⟨1, ![127]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024x64 : S_.BroadcastsInDim S1024x1024x64 (![] : Fin 0 → Fin S1024x1024x64.rank)
  reducesTo_S1024x1024x64_S_d0_1_2 : S1024x1024x64.ReducesTo [0, 1, 2] S_
  bcast_S_S127x320 : S_.BroadcastsInDim S127x320 (![] : Fin 0 → Fin S127x320.rank)
  reducesTo_S127x320_S_d0_1 : S127x320.ReducesTo [0, 1] S_
  bcast_S_S127 : S_.BroadcastsInDim S127 (![] : Fin 0 → Fin S127.rank)
  reducesTo_S127_S_d0 : S127.ReducesTo [0] S_

variable [Facts]

def fn_part1 {F : FTy → Type} [FloatOps F] (main_arg4 : FVec F S127 .f32) (main_v13 : IVec S_ 1) (main_v16 : IVec S127x320 1) : IVec S_ 1 :=
  let main_c_5 : IVec S_ 1 := constantI S_ 1 1#1
  let main_v17 : IVec S_ 1 := (fun x v => Host.reduce IntOp.andi x v reducesTo_S127x320_S_d0_1 h_S_) main_v16 main_c_5
  let main_v18 : IVec S_ 1 := andi main_v13 main_v17
  let main_v19 : FVec F S127 .f32 := Host.absf main_arg4
  let main_cst_6 : FVec F S_ .f32 := constant S_ .f32 0x7F800000#32
  let main_v20 : FVec F S127 .f32 := broadcastInDim S127 ![] bcast_S_S127 main_cst_6
  let main_v21 : IVec S127 1 := cmpf .olt main_v19 main_v20
  let main_c_7 : IVec S_ 1 := constantI S_ 1 1#1
  let main_v22 : IVec S_ 1 := (fun x v => Host.reduce IntOp.andi x v reducesTo_S127_S_d0 h_S_) main_v21 main_c_7
  let main_v23 : IVec S_ 1 := andi main_v18 main_v22
  main_v23

def fn {F : FTy → Type} [FloatOps F] (main_arg0 : FVec F S1024x128 .f32) (main_arg1 : FVec F S1024x128 .f32) (main_arg2 : FVec F S1024x1024x64 .f32) (main_arg3 : FVec F S127x320 .f32) (main_arg4 : FVec F S127 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x1024x64 .f32 := Host.absf main_arg2
  let main_cst_2 : FVec F S_ .f32 := constant S_ .f32 0x7F800000#32
  let main_v10 : FVec F S1024x1024x64 .f32 := broadcastInDim S1024x1024x64 ![] bcast_S_S1024x1024x64 main_cst_2
  let main_v11 : IVec S1024x1024x64 1 := cmpf .olt main_v9 main_v10
  let main_c_3 : IVec S_ 1 := constantI S_ 1 1#1
  let main_v12 : IVec S_ 1 := (fun x v => Host.reduce IntOp.andi x v reducesTo_S1024x1024x64_S_d0_1_2 h_S_) main_v11 main_c_3
  let main_v13 : IVec S_ 1 := andi main_v8 main_v12
  let main_v14 : FVec F S127x320 .f32 := Host.absf main_arg3
  let main_cst_4 : FVec F S_ .f32 := constant S_ .f32 0x7F800000#32
  let main_v15 : FVec F S127x320 .f32 := broadcastInDim S127x320 ![] bcast_S_S127x320 main_cst_4
  let main_v16 : IVec S127x320 1 := cmpf .olt main_v14 main_v15
  fn_part1 (F := F) main_arg4 main_v13 main_v16
-- ==== Kernel.lean ====
abbrev S1024x128 : Shape := ⟨2, ![1024, 128]⟩
abbrev S1024x1024x64 : Shape := ⟨3, ![1024, 1024, 64]⟩
abbrev S127x320 : Shape := ⟨2, ![127, 320]⟩
abbrev S127 : Shape := ⟨1, ![127]⟩
abbrev S127x128 : Shape := ⟨2, ![127, 128]⟩
abbrev S127x64 : Shape := ⟨2, ![127, 64]⟩
abbrev S_ : Shape := ⟨0, ![]⟩
abbrev S128x128 : Shape := ⟨2, ![128, 128]⟩
abbrev S128x64 : Shape := ⟨2, ![128, 64]⟩
abbrev S128 : Shape := ⟨1, ![128]⟩
abbrev S64x128 : Shape := ⟨2, ![64, 128]⟩
abbrev S1024x1024x127 : Shape := ⟨3, ![1024, 1024, 127]⟩
abbrev S128x128x64 : Shape := ⟨3, ![128, 128, 64]⟩
abbrev S128x128x127 : Shape := ⟨3, ![128, 128, 127]⟩
abbrev S16384x64 : Shape := ⟨2, ![16384, 64]⟩
abbrev S16384x128 : Shape := ⟨2, ![16384, 128]⟩
abbrev S128x128x128 : Shape := ⟨3, ![128, 128, 128]⟩
abbrev S128x1x128 : Shape := ⟨3, ![128, 1, 128]⟩
abbrev S1x128x128 : Shape := ⟨3, ![1, 128, 128]⟩
abbrev S1x1x128 : Shape := ⟨3, ![1, 1, 128]⟩

abbrev nBuf : Space → Nat
  | .hbm => 26
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x1024x64, .f32⟩
  | .hbm, ⟨3, _⟩ => ⟨S127x320, .f32⟩
  | .hbm, ⟨4, _⟩ => ⟨S127, .f32⟩
  | .hbm, ⟨5, _⟩ => ⟨S127x128, .f32⟩
  | .hbm, ⟨6, _⟩ => ⟨S127x128, .f32⟩
  | .hbm, ⟨7, _⟩ => ⟨S127x64, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S_, .f32⟩
  | .hbm, ⟨13, _⟩ => ⟨S128x128, .f32⟩
  | .hbm, ⟨14, _⟩ => ⟨S_, .i32⟩
  | .hbm, ⟨15, _⟩ => ⟨S_, .f32⟩
  | .hbm, ⟨16, _⟩ => ⟨S128x64, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S128x128, .f32⟩
  | .hbm, ⟨21, _⟩ => ⟨S1024x128, .f32⟩
  | .hbm, ⟨22, _⟩ => ⟨S128x128, .f32⟩
  | .hbm, ⟨23, _⟩ => ⟨S1024x128, .f32⟩
  | .hbm, ⟨24, _⟩ => ⟨S64x128, .f32⟩
  | .hbm, ⟨25, _⟩ => ⟨S1024x1024x127, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128x64, .f32⟩
  | .local _ .vmem, ⟨5, _⟩ => ⟨S128x128x64, .f32⟩
  | .local _ .vmem, ⟨6, _⟩ => ⟨S64x128, .f32⟩
  | .local _ .vmem, ⟨7, _⟩ => ⟨S128, .f32⟩
  | .local _ .vmem, ⟨8, _⟩ => ⟨S128x128x127, .f32⟩
  | .local _ .vmem, ⟨9, _⟩ => ⟨S128x128x127, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128x127 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S127x320_S127x128_0_0 : S127x320.Slices ![0, 0] S127x128
  slices_S127x320_S127x128_0_128 : S127x320.Slices ![0, 128] S127x128
  slices_S127x320_S127x64_0_256 : S127x320.Slices ![0, 256] S127x64
  pads_S127x128_S128x128_010_000 : S127x128.Pads (![0, 0] : Fin 2 → Nat) ![1, 0] ![0, 0] S128x128
  h_S_ : 0 < S_.numel
  pads_S127x64_S128x64_010_000 : S127x64.Pads (![0, 0] : Fin 2 → Nat) ![1, 0] ![0, 0] S128x64
  pads_S127_S128_010 : S127.Pads (![0] : Fin 1 → Nat) ![1] ![0] S128
  transposes_S128x128_S128x128_1_0 : S128x128.Transposes [1, 0] S128x128
  transposes_S128x64_S64x128_1_0 : S128x64.Transposes [1, 0] S64x128
  inb_S128x128x64_S128x128x64_0_0_0 : ∀ a, (![0, 0, 0] : Fin 3 → Nat) a + S128x128x64.size a ≤ S128x128x64.size a
  h_S128x128x64 : 0 < S128x128x64.numel
  shapeCasts_S128x128x64_S16384x64 : S128x128x64.ShapeCasts S16384x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S16384x128_S128x128x128 : S16384x128.ShapeCasts S128x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  broadcasts_S128x1x128_S128x128x128 : S128x1x128.Broadcasts S128x128x128
  shapeCasts_S128x128_S1x128x128 : S128x128.ShapeCasts S1x128x128
  broadcasts_S1x128x128_S128x128x128 : S1x128x128.Broadcasts S128x128x128
  inb_S128_S128_0 : ∀ a, (![0] : Fin 1 → Nat) a + S128.size a ≤ S128.size a
  h_S128 : 0 < S128.numel
  shapeCasts_S128_S128 : S128.ShapeCasts S128
  shapeCasts_S128_S1x1x128 : S128.ShapeCasts S1x1x128
  broadcasts_S1x1x128_S128x128x128 : S1x1x128.Broadcasts S128x128x128
  slices_S128x128x128_o0_0_0_S128x128x127 : S128x128x128.Slices ![0, 0, 0] S128x128x127
  inb_S128x128x127_S128x128x127_0_0_0 : ∀ a, (![0, 0, 0] : Fin 3 → Nat) a + S128x128x127.size a ≤ S128x128x127.size a
  h_S128x128x127 : 0 < S128x128x127.numel
  dot_S1024x128_S128x128_S1024x128_1_0_0_1_n_n_wf : DotDims.WF S1024x128 S128x128 S1024x128 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x64.size a ≤ S1024x1024x64.size a
  hwx0_2 : ∀ i : grid0.Coords, EltTy.bits .f32 = 32 ∨ (Rect.block (s := S1024x1024x64) S128x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128x127.size a ≤ S1024x1024x127.size a
  hwx0_5 : ∀ i : grid0.Coords, EltTy.bits .f32 = 32 ∨ (Rect.block (s := S1024x1024x127) S128x128x127.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_v8) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128x127.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024x64 : Shape := ⟨3, ![1024, 1024, 64]⟩
abbrev S127x320 : Shape := ⟨2, ![127, 320]⟩
abbrev S127 : Shape := ⟨1, ![127]⟩
abbrev S127x128 : Shape := ⟨2, ![127, 128]⟩
abbrev S127x64 : Shape := ⟨2, ![127, 64]⟩
abbrev S128x127 : Shape := ⟨2, ![128, 127]⟩
abbrev S1024x127 : Shape := ⟨2, ![1024, 127]⟩
abbrev S1024x1024x127 : Shape := ⟨3, ![1024, 1024, 127]⟩
abbrev S1024x1x127 : Shape := ⟨3, ![1024, 1, 127]⟩
abbrev S1x1024x127 : Shape := ⟨3, ![1, 1024, 127]⟩
abbrev S1x1x127 : Shape := ⟨3, ![1, 1, 127]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x1024x64, .f32⟩
  | .hbm, ⟨3, _⟩ => ⟨S127x320, .f32⟩
  | .hbm, ⟨4, _⟩ => ⟨S127, .f32⟩
  | .hbm, ⟨5, _⟩ => ⟨S127x128, .f32⟩
  | .hbm, ⟨6, _⟩ => ⟨S127x128, .f32⟩
  | .hbm, ⟨7, _⟩ => ⟨S127x64, .f32⟩
  | .hbm, ⟨8, _⟩ => ⟨S128x127, .f32⟩
  | .hbm, ⟨9, _⟩ => ⟨S1024x127, .f32⟩
  | .hbm, ⟨10, _⟩ => ⟨S128x127, .f32⟩
  | .hbm, ⟨11, _⟩ => ⟨S1024x127, .f32⟩
  | .hbm, ⟨12, _⟩ => ⟨S1024x1024x127, .f32⟩
  | .hbm, ⟨13, _⟩ => ⟨S1024x1x127, .f32⟩
  | .hbm, ⟨14, _⟩ => ⟨S1024x1024x127, .f32⟩
  | .hbm, ⟨15, _⟩ => ⟨S1024x1024x127, .f32⟩
  | .hbm, ⟨16, _⟩ => ⟨S1x1024x127, .f32⟩
  | .hbm, ⟨17, _⟩ => ⟨S1024x1024x127, .f32⟩
  | .hbm, ⟨18, _⟩ => ⟨S1024x1024x127, .f32⟩
  | .hbm, ⟨19, _⟩ => ⟨S1x1x127, .f32⟩
  | .hbm, ⟨20, _⟩ => ⟨S1024x1024x127, .f32⟩
  | .hbm, ⟨21, _⟩ => ⟨S1024x1024x127, .f32⟩
  | .hbm, ⟨22, _⟩ => ⟨S1024x1024x127, .f32⟩
  | .hbm, ⟨23, _⟩ => ⟨S1024x1024x127, .f32⟩
  | .hbm, ⟨24, _⟩ => ⟨S_, .f32⟩
  | .hbm, ⟨25, _⟩ => ⟨S1024x1024x127, .f32⟩
  | .hbm, ⟨26, _⟩ => ⟨S1024x1024x127, .f32⟩
  | .hbm, ⟨27, _⟩ => ⟨S_, .f32⟩
  | .hbm, ⟨28, _⟩ => ⟨S1024x1024x127, .f32⟩
  | .hbm, ⟨29, _⟩ => ⟨S1024x1024x127, .f32⟩
  | .hbm, ⟨30, _⟩ => ⟨S1024x1024x127, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  slices_S127x320_S127x128_0_0 : S127x320.Slices ![0, 0] S127x128
  slices_S127x320_S127x128_0_128 : S127x320.Slices ![0, 128] S127x128
  slices_S127x320_S127x64_0_256 : S127x320.Slices ![0, 256] S127x64
  transposes_S127x128_S128x127_1_0 : S127x128.Transposes [1, 0] S128x127
  bcast_S1024x127_S1024x1x127_0_2 : S1024x127.BroadcastsInDim S1024x1x127 (![0, 2] : Fin 2 → Fin S1024x1x127.rank)
  bcast_S1024x1x127_S1024x1024x127_0_1_2 : S1024x1x127.BroadcastsInDim S1024x1024x127 (![0, 1, 2] : Fin 3 → Fin S1024x1024x127.rank)
  bcast_S1024x127_S1x1024x127_1_2 : S1024x127.BroadcastsInDim S1x1024x127 (![1, 2] : Fin 2 → Fin S1x1024x127.rank)
  bcast_S1x1024x127_S1024x1024x127_0_1_2 : S1x1024x127.BroadcastsInDim S1024x1024x127 (![0, 1, 2] : Fin 3 → Fin S1024x1024x127.rank)
  bcast_S127_S1x1x127_2 : S127.BroadcastsInDim S1x1x127 (![2] : Fin 1 → Fin S1x1x127.rank)
  bcast_S1x1x127_S1024x1024x127_0_1_2 : S1x1x127.BroadcastsInDim S1024x1024x127 (![0, 1, 2] : Fin 3 → Fin S1024x1024x127.rank)
  bcast_S_S1024x1024x127 : S_.BroadcastsInDim S1024x1024x127 (![] : Fin 0 → Fin S1024x1024x127.rank)
  dot_S1024x128_S128x127_S1024x127_1_0_0_1_n_n_wf : DotDims.WF S1024x128 S128x127 S1024x127 [1] [0] [0] [1] [] []
  dot_S1024x1024x64_S127x64_S1024x1024x127_2_1_01_0_n_n_wf : DotDims.WF S1024x1024x64 S127x64 S1024x1024x127 [2] [1] [0, 1] [0] [] []

variable [Facts₀]

def dot_S1024x128_S128x127_S1024x127_1_0_0_1_n_n : DotDims S1024x128 S128x127 S1024x127 where
  lhsContracting := [1]
  rhsContracting := [0]
  lhsNonContracting := [0]
  rhsNonContracting := [1]
  lhsBatch := []
  rhsBatch := []
  wf := dot_S1024x128_S128x127_S1024x127_1_0_0_1_n_n_wf
def dot_S1024x1024x64_S127x64_S1024x1024x127_2_1_01_0_n_n : DotDims S1024x1024x64 S127x64 S1024x1024x127 where
  lhsContracting := [2]
  rhsContracting := [1]
  lhsNonContracting := [0, 1]
  rhsNonContracting := [0]
  lhsBatch := []
  rhsBatch := []
  wf := dot_S1024x1024x64_S127x64_S1024x1024x127_2_1_01_0_n_n_wf

class Facts : Prop extends Facts₀ where

variable [Facts]
-- ==== Proof.PairwiseSpec.lean ====
/-
  The function both programs compute, over the extended reals.

  For an origin row p, a destination row q and an output channel c < 127 the score is
      silu (pre p q c),   silu x = x · (1 / (1 + e^(-x))),
      pre p q c = ((Σ_{k<64} dis[p,q,k] · W[c, 256+k]  +  Σ_{k<128} o[p,k] · W[c,k])
                     +  Σ_{k<128} d[q,k] · W[c,128+k])  +  b[c],
  the three blocks of columns of the weight matrix W (origin, destination, distance) each contracted with
  its own operand. The grouping of the four summands is the one both programs use, so no law beyond the
  definitions is needed to compare them (in particular nothing that fails at an infinity).
-/
import Idealize.ShloMosaic.PureOps.Ideal
import Idealize.ShloMosaic.Lib.ValueIdx

noncomputable section

namespace Cert.PairwiseSilu

open Idealize.ShloMosaic Idealize.ShloMosaic.ValueIdx

/-- Column k of the weight matrix's origin block (columns 0 … 127). -/
abbrev colO (k : Fin 128) : Fin 320 := ⟨k.val, by have := k.isLt; omega⟩
/-- Column k of its destination block (columns 128 … 255). -/
abbrev colD (k : Fin 128) : Fin 320 := ⟨128 + k.val, by have := k.isLt; omega⟩
/-- Column k of its distance block (columns 256 … 319). -/
abbrev colDis (k : Fin 64) : Fin 320 := ⟨256 + k.val, by have := k.isLt; omega⟩

/-- The pre-activation of the pair (p, q) in channel c. -/
def preact (o d : FVec Ideal ⟨2, ![1024, 128]⟩ .f32) (dis : FVec Ideal ⟨3, ![1024, 1024, 64]⟩ .f32)
    (W : FVec Ideal ⟨2, ![127, 320]⟩ .f32) (b : FVec Ideal ⟨1, ![127]⟩ .f32) (p q : Fin 1024) (c : Fin 127) : EReal :=
  (((∑ k : Fin 64, dis (ix3 p q k) * W (ix2 c (colDis k))) + ∑ k : Fin 128, o (ix2 p k) * W (ix2 c (colO k)))
    + ∑ k : Fin 128, d (ix2 q k) * W (ix2 c (colD k))) + b (ix1 c)

/-- x · σ(x), with σ the logistic function of the extended reals. -/
def silu (x : EReal) : EReal := x * Ideal.logistic x

/-- The whole result array. -/
def scores (o d : FVec Ideal ⟨2, ![1024, 128]⟩ .f32) (dis : FVec Ideal ⟨3, ![1024, 1024, 64]⟩ .f32)
    (W : FVec Ideal ⟨2, ![127, 320]⟩ .f32) (b : FVec Ideal ⟨1, ![127]⟩ .f32) : FVec Ideal ⟨3, ![1024, 1024, 127]⟩ .f32 :=
  fun i => silu (preact o d dis W b (i 0) (i 1) (i 2))

theorem scores_apply (o d : FVec Ideal ⟨2, ![1024, 128]⟩ .f32) (dis : FVec Ideal ⟨3, ![1024, 1024, 64]⟩ .f32)
    (W : FVec Ideal ⟨2, ![127, 320]⟩ .f32) (b : FVec Ideal ⟨1, ![127]⟩ .f32) (p q : Fin 1024) (c : Fin 127) :
    scores o d dis W b (ix3 p q c) = silu (preact o d dis W b p q c) := rfl

end Cert.PairwiseSilu

end
-- ==== Proof.ReferenceReading.lean ====
/-
  The reference program's result, read at an index, is the specification's score.

  The reference slices the three column blocks out of W, transposes the first two, contracts each with its
  operand (origin rows, destination rows, distances), broadcasts the two row projections over the other
  pair axis, adds the four summands left to right and applies x ↦ x · (1 / (1 + e^(-x))). Reading each
  stage at an index gives, term for term, the sums the specification names; the final step is that the
  printed unit constant is the extended real 1, so the host's expansion of the logistic function is the
  logistic function.
-/
import proofs.«161568_j12833362280639_2_alg».proof.Proof.Gen.ReferenceIdeal.Read
import proofs.«161568_j12833362280639_2_alg».proof.Proof.PairwiseSpec
import Idealize.ShloMosaic.Lib.IdealHost

noncomputable section

namespace Cert.ReferenceIdeal.Reading

open Cert.ReferenceIdeal Cert.ReferenceIdeal.Read Idealize.ShloMosaic Idealize.ShloMosaic.ValueIdx Cert.PairwiseSilu

variable (x0 x1 : (⟨S1024x128, .f32⟩ : BufTy).Contents (Elt Ideal)) (x2 : (⟨S1024x1024x64, .f32⟩ : BufTy).Contents (Elt Ideal))
  (x3 : (⟨S127x320, .f32⟩ : BufTy).Contents (Elt Ideal)) (x4 : (⟨S127, .f32⟩ : BufTy).Contents (Elt Ideal))

/-! ### Which entries each stage reads, in coordinates -/

/-- The distance contraction reads dis[p, q, k]. -/
theorem dis_idx (p q : Fin 1024) (c : Fin 127) (k : Fin 64) : lidx_main_v7 (ix3 p q c) k = ix3 p q k :=
  funext fun a => by match a with | ⟨0, _⟩ => rfl | ⟨1, _⟩ => rfl | ⟨2, _⟩ => rfl

/-- … against W[c, 256 + k]. -/
theorem wdis_idx (p q : Fin 1024) (c : Fin 127) (k : Fin 64) : idx_main_v2 (ridx_main_v7 (ix3 p q c) k) = ix2 c (colDis k) :=
  funext fun a => by match a with | ⟨0, _⟩ => rfl | ⟨1, _⟩ => rfl

/-- The origin projection, broadcast over q, reads o[p, k]. -/
theorem o_idx (p q : Fin 1024) (c : Fin 127) (k : Fin 128) : lidx_main_v4 (idx_main_v8 (idx_main_v9 (ix3 p q c))) k = ix2 p k :=
  funext fun a => by match a with | ⟨0, _⟩ => rfl | ⟨1, _⟩ => rfl

/-- … against W[c, k] (the slice transposed back). -/
theorem wo_idx (p q : Fin 1024) (c : Fin 127) (k : Fin 128) :
    idx_main_v0 (idx_main_v3 (ridx_main_v4 (idx_main_v8 (idx_main_v9 (ix3 p q c))) k)) = ix2 c (colO k) :=
  funext fun a => by match a with | ⟨0, _⟩ => rfl | ⟨1, _⟩ => rfl

/-- The destination projection, broadcast over p, reads d[q, k]. -/
theorem d_idx (p q : Fin 1024) (c : Fin 127) (k : Fin 128) : lidx_main_v6 (idx_main_v11 (idx_main_v12 (ix3 p q c))) k = ix2 q k :=
  funext fun a => by match a with | ⟨0, _⟩ => rfl | ⟨1, _⟩ => rfl

/-- … against W[c, 128 + k]. -/
theorem wd_idx (p q : Fin 1024) (c : Fin 127) (k : Fin 128) :
    idx_main_v1 (idx_main_v5 (ridx_main_v6 (idx_main_v11 (idx_main_v12 (ix3 p q c))) k)) = ix2 c (colD k) :=
  funext fun a => by match a with | ⟨0, _⟩ => rfl | ⟨1, _⟩ => rfl

/-- The bias, broadcast over both pair axes, reads b[c]. -/
theorem b_idx (p q : Fin 1024) (c : Fin 127) : idx_main_v14 (idx_main_v15 (ix3 p q c)) = ix1 c :=
  funext fun a => by match a with | ⟨0, _⟩ => rfl

/-! ### The stages -/

/-- The value the activation is applied to is the specification's pre-activation. -/
theorem preact_eq (p q : Fin 1024) (c : Fin 127) :
    val_main_v16 (F := Ideal) x0 x1 x2 x3 x4 (ix3 p q c) = preact x0 x1 x2 x3 x4 p q c := by
  rw [val_main_v16_apply, val_main_v13_apply, val_main_v10_apply, val_main_v7_apply, val_main_v9_apply, val_main_v8_apply,
    val_main_v4_apply, val_main_v12_apply, val_main_v11_apply, val_main_v6_apply, val_main_v15_apply, val_main_v14_apply]
  simp only [val_main_v2_apply, val_main_v3_apply, val_main_v0_apply, val_main_v5_apply, val_main_v1_apply,
    dis_idx, wdis_idx, o_idx, wo_idx, d_idx, wd_idx, b_idx]
  rfl

/-- The reference's result array is the specification's. -/
theorem stage_eq : val_main_v17 (F := Ideal) x0 x1 x2 x3 x4 = scores x0 x1 x2 x3 x4 := by
  funext i
  obtain ⟨p, q, c, rfl⟩ : ∃ (p q : Fin 1024) (c : Fin 127), i = ix3 p q c := ⟨i 0, i 1, i 2, eq_ix3 i⟩
  rw [val_main_v17_apply, val_main_call0_v5_apply, val_main_call0_v4_apply, val_main_call0_cst_0_apply,
    val_main_call0_v3_apply, val_main_call0_v2_apply, val_main_call0_cst_apply, val_main_call0_v1_apply,
    val_main_call0_v0_apply, preact_eq, scores_apply]
  show preact x0 x1 x2 x3 x4 p q c * Ideal.div (Ideal.ofBits .f32 0x3F800000#32)
      (Ideal.ofBits .f32 0x3F800000#32 + Ideal.exp (-(preact x0 x1 x2 x3 x4 p q c))) = _
  rw [Ideal.ofBits_one_f32]
  rfl

end Cert.ReferenceIdeal.Reading

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.BodyReading.lean ====
/-
  What the kernel body stores, read at one entry.

  At a grid point the body holds a 128 × 128 × 64 block of distances, the 64 × 128 distance weights, a
  128 × 128 block of origin projections, a 128 × 128 block of destination projections and the 128 biases.
  It flattens the pair axes of the distances, multiplies by the weights on the matrix unit, unflattens,
  adds the origin projection along the first pair axis, the destination projection along the second and
  the bias along neither, applies x ↦ x · σ(x) and keeps lanes 0 … 126. So entry (a, b, c) of what it
  stores is  silu (((Σ_k dis[a,b,k] · w[k,c] + op[a,c]) + dp[b,c]) + bias[c]).
-/
import proofs.«161568_j12833362280639_2_alg».proof.Proof.Gen.KernelIdeal.Skeleton
import proofs.«161568_j12833362280639_2_alg».proof.Proof.PairwiseSpec
import proofs.«161568_j12833362280639_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.PairwiseSilu

/-- Output channel c as one of the 128 lanes the body computes on. -/
abbrev lane (c : Fin 127) : Fin 128 := ⟨c.val, by have := c.isLt; omega⟩
/-- The pair (a, b) of the block as a row of the flattened 16384 × 64 matrix. -/
abbrev pairRow (a b : Fin 128) : Fin 16384 := ⟨a.val * 128 + b.val, by have := a.isLt; have := b.isLt; omega⟩

variable {α : Type}

/-! ### The layout operations, each read at coordinates -/

/-- Keeping lanes 0 … 126 reads the same entry. -/
theorem keepLanes_apply (x : S128x128x128.Idx → α) (h : S128x128x128.Slices ![0, 0, 0] S128x128x127) (a b : Fin 128) (c : Fin 127) :
    extractStridedSlice S128x128x127 ![0, 0, 0] x h (ix3 a b c) = x (ix3 a b (lane c)) :=
  extractStridedSlice_apply ![0, 0, 0] x h (ix3 a b c) (ix3 a b (lane c)) (fun d => match d with
    | ⟨0, _⟩ => by show a.val = 0 + a.val; omega
    | ⟨1, _⟩ => by show b.val = 0 + b.val; omega
    | ⟨2, _⟩ => by show c.val = 0 + c.val; omega)

/-- Unflattening the pair axes: entry (a, b, l) is row a · 128 + b, column l. -/
theorem unflatten_apply (x : S16384x128.Idx → α) (h : S16384x128.ShapeCasts S128x128x128) (a b l : Fin 128) :
    shapeCast S128x128x128 x h (ix3 a b l) = x (ix2 (pairRow a b) l) :=
  shapeCast_apply x h (ix3 a b l) (ix2 (pairRow a b) l) (by
    rw [Shape.rowMajor_val_two, Shape.rowMajor_val_three]
    show (a.val * 128 + b.val) * 128 + l.val = (a.val * 128 + b.val) * 128 + l.val
    rfl)

/-- Flattening the pair axes: row a · 128 + b, column k is entry (a, b, k). -/
theorem flatten_apply (x : S128x128x64.Idx → α) (h : S128x128x64.ShapeCasts S16384x64) (a b : Fin 128) (k : Fin 64) :
    shapeCast S16384x64 x h (ix2 (pairRow a b) k) = x (ix3 a b k) :=
  shapeCast_apply x h (ix2 (pairRow a b) k) (ix3 a b k) (by
    rw [Shape.rowMajor_val_two, Shape.rowMajor_val_three]
    show (a.val * 128 + b.val) * 64 + k.val = (a.val * 128 + b.val) * 64 + k.val
    rfl)

/-- A 128 × 128 matrix given a unit middle axis and copied along it: entry (a, b, l) is entry (a, l). -/
theorem alongFirst_apply (x : S128x128.Idx → α) (h1 : S128x128.ShapeCasts S128x1x128) (h2 : S128x1x128.Broadcasts S128x128x128)
    (a b l : Fin 128) : broadcastTo S128x128x128 (shapeCast S128x1x128 x h1) h2 (ix3 a b l) = x (ix2 a l) := by
  refine (broadcastTo_apply (shapeCast S128x1x128 x h1) h2 (ix3 a b l) (ix3 a (0 : Fin 1) l) (fun d => match d with
    | ⟨0, _⟩ => rfl
    | ⟨1, _⟩ => rfl
    | ⟨2, _⟩ => rfl)).trans ?_
  exact shapeCast_apply x h1 (ix3 a (0 : Fin 1) l) (ix2 a l) (by
    rw [Shape.rowMajor_val_two, Shape.rowMajor_val_three]
    show a.val * 128 + l.val = (a.val * 1 + 0) * 128 + l.val
    omega)

/-- A 128 × 128 matrix given a unit leading axis and copied along it: entry (a, b, l) is entry (b, l). -/
theorem alongSecond_apply (x : S128x128.Idx → α) (h1 : S128x128.ShapeCasts S1x128x128) (h2 : S1x128x128.Broadcasts S128x128x128)
    (a b l : Fin 128) : broadcastTo S128x128x128 (shapeCast S1x128x128 x h1) h2 (ix3 a b l) = x (ix2 b l) := by
  refine (broadcastTo_apply (shapeCast S1x128x128 x h1) h2 (ix3 a b l) (ix3 (0 : Fin 1) b l) (fun d => match d with
    | ⟨0, _⟩ => rfl
    | ⟨1, _⟩ => rfl
    | ⟨2, _⟩ => rfl)).trans ?_
  exact shapeCast_apply x h1 (ix3 (0 : Fin 1) b l) (ix2 b l) (by
    rw [Shape.rowMajor_val_two, Shape.rowMajor_val_three]
    show b.val * 128 + l.val = (0 * 128 + b.val) * 128 + l.val
    omega)

/-- A vector of 128 lanes given two unit leading axes and copied along both: entry (a, b, l) is entry l. -/
theorem alongNeither_apply (x : S128.Idx → α) (h1 : S128.ShapeCasts S1x1x128) (h2 : S1x1x128.Broadcasts S128x128x128)
    (a b l : Fin 128) : broadcastTo S128x128x128 (shapeCast S1x1x128 x h1) h2 (ix3 a b l) = x (ix1 l) := by
  refine (broadcastTo_apply (shapeCast S1x1x128 x h1) h2 (ix3 a b l) (ix3 (0 : Fin 1) (0 : Fin 1) l) (fun d => match d with
    | ⟨0, _⟩ => rfl
    | ⟨1, _⟩ => rfl
    | ⟨2, _⟩ => rfl)).trans ?_
  exact shapeCast_apply x h1 (ix3 (0 : Fin 1) (0 : Fin 1) l) (ix1 l) (by
    rw [Shape.rowMajor_val_one, Shape.rowMajor_val_three]
    show l.val = (0 * 1 + 0) * 128 + l.val
    omega)

/-! ### The product on the matrix unit -/

local notation "dd" => dot_S16384x64_S64x128_S16384x128_1_0_0_1_n_n

theorem dd_l0 (i : S16384x128.Idx) (q : DotDims.contr dd |>.Idx) : (DotDims.lhsIdx dd i q 0).val = (i 0).val := by
  unfold DotDims.lhsIdx
  rw [dif_neg (show ¬(0 : Fin S16384x64.rank) ∈ DotDims.lhsBatch dd by decide),
    dif_pos (show (0 : Fin S16384x64.rank) ∈ DotDims.lhsNonContracting dd by decide)]
  rfl
theorem dd_l1 (i : S16384x128.Idx) (q : DotDims.contr dd |>.Idx) : (DotDims.lhsIdx dd i q 1).val = (q ⟨0, by decide⟩).val :=
  DotDims.lhsIdx_val_of_single dd rfl i q
theorem dd_r0 (i : S16384x128.Idx) (q : DotDims.contr dd |>.Idx) : (DotDims.rhsIdx dd i q 0).val = (q ⟨0, by decide⟩).val :=
  DotDims.rhsIdx_val_of_single dd rfl i q
theorem dd_r1 (i : S16384x128.Idx) (q : DotDims.contr dd |>.Idx) : (DotDims.rhsIdx dd i q 1).val = (i 1).val := by
  unfold DotDims.rhsIdx
  rw [dif_neg (show ¬(1 : Fin S64x128.rank) ∈ DotDims.rhsBatch dd by decide),
    dif_pos (show (1 : Fin S64x128.rank) ∈ DotDims.rhsNonContracting dd by decide)]
  rfl

/-- The flattened distances times the weights, into a zero accumulator: a sum over the 64 distance features. -/
theorem product_apply (l : FVec Ideal S16384x64 .f32) (r : FVec Ideal S64x128 .f32) (p : Fin 16384) (q : Fin 128) :
    matmul dd (some .fp32) l r (constant (F := Ideal) S16384x128 .f32 0x00000000#32) (ix2 p q) = ∑ k : Fin 64, l (ix2 p k) * r (ix2 k q) :=
  PlainMatmul.matmul_zero_apply dd (some .fp32) rfl rfl dd_l0 dd_l1 dd_r0 dd_r1 l r p q

/-! ### The stored value at an entry -/

/-- Entry (a, b, c) of what the body stores. -/
theorem stored_apply (dis : Vec Ideal S128x128x64 .f32) (w : Vec Ideal S64x128 .f32) (op dp : Vec Ideal S128x128 .f32)
    (bias : Vec Ideal S128 .f32) (a b : Fin 128) (c : Fin 127) :
    k0_pay1 (F := Ideal) dis w op dp bias (ix3 a b c)
      = silu ((((∑ k : Fin 64, dis (ix3 a b k) * w (ix2 k (lane c))) + op (ix2 a (lane c))) + dp (ix2 b (lane c))) + bias (ix1 (lane c))) := by
  unfold k0_pay1
  rw [keepLanes_apply, mulf_apply]
  show (fun x : EReal => x * Ideal.logistic x) _ = silu _
  rw [addf_apply, addf_apply, addf_apply, alongNeither_apply, alongSecond_apply, alongFirst_apply, unflatten_apply, product_apply]
  simp only [flatten_apply, shapeCast_self]
  rfl

end Cert.KernelIdeal.Body

end
-- ==== Proof.HostProjections.lean ====
/-
  What the region finds in the arrays the host prepares for it.

  Before the grid starts the host cuts the three column blocks out of W (origin: columns 0 … 127,
  destination: 128 … 255, distance: 256 … 319), appends one zero row to each (127 → 128 output channels),
  transposes them, and multiplies the origin and destination embeddings by their blocks once; the bias
  gets one appended zero as well. For a channel c < 127 the appended row is never read, so
      oProj[n, c] = Σ_k o[n,k] · W[c,k],   dProj[n, c] = Σ_k d[n,k] · W[c,128+k],
      wDis[k, c] = W[c, 256+k],            bias128[c] = b[c].
-/
import proofs.«161568_j12833362280639_2_alg».proof.Proof.Gen.KernelIdeal.Frame
import proofs.«161568_j12833362280639_2_alg».proof.Proof.PairwiseSpec
import proofs.«161568_j12833362280639_2_alg».proof.Proof.LibPlainMatmul
import proofs.«161568_j12833362280639_2_alg».proof.Proof.BodyReading
import Idealize.ShloMosaic.Lib.Pipeline.Value
import Idealize.ShloMosaic.Lib.KernelVsHost
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.PairwiseSilu Cert.KernelIdeal.Body

/-! ### The prepared arrays as terms of the arguments -/

/-- The value the host pads with: the integer zero, converted. -/
abbrev padValue : FVec Ideal S_ .f32 := sitofp (F := Ideal) .f32 (constantI S_ 32 0#32)

/-- The origin block of W with a zero row appended, transposed: [128 features, 128 channels]. -/
def wOrigin (W : FVec Ideal S127x320 .f32) : FVec Ideal S128x128 .f32 :=
  transpose S128x128 [1, 0] (pad S128x128 ![0, 0] ![1, 0] ![0, 0]
    (extractStridedSlice S127x128 ![0, 0] W slices_S127x320_S127x128_0_0) padValue pads_S127x128_S128x128_010_000 h_S_)
    transposes_S128x128_S128x128_1_0

/-- The destination block of W, likewise. -/
def wDest (W : FVec Ideal S127x320 .f32) : FVec Ideal S128x128 .f32 :=
  transpose S128x128 [1, 0] (pad S128x128 ![0, 0] ![1, 0] ![0, 0]
    (extractStridedSlice S127x128 ![0, 128] W slices_S127x320_S127x128_0_128) padValue pads_S127x128_S128x128_010_000 h_S_)
    transposes_S128x128_S128x128_1_0

/-- The distance block of W, likewise: [64 features, 128 channels]. -/
def wDis (W : FVec Ideal S127x320 .f32) : FVec Ideal S64x128 .f32 :=
  transpose S64x128 [1, 0] (pad S128x64 ![0, 0] ![1, 0] ![0, 0]
    (extractStridedSlice S127x64 ![0, 256] W slices_S127x320_S127x64_0_256) padValue pads_S127x64_S128x64_010_000 h_S_)
    transposes_S128x64_S64x128_1_0

/-- The bias with one zero appended. -/
def bias128 (b : FVec Ideal S127 .f32) : FVec Ideal S128 .f32 :=
  pad S128 ![0] ![1] ![0] b padValue pads_S127_S128_010 h_S_

local notation "hd" => dot_S1024x128_S128x128_S1024x128_1_0_0_1_n_n

/-- The embeddings times a prepared block, once for all pairs. -/
def project (e : FVec Ideal S1024x128 .f32) (w : FVec Ideal S128x128 .f32) : FVec Ideal S1024x128 .f32 :=
  Host.dotGeneral hd (some .fp32) e w

/-! ### Read at an entry of a channel c < 127 -/

theorem wOrigin_apply (W : FVec Ideal S127x320 .f32) (k : Fin 128) (c : Fin 127) : wOrigin W (ix2 k (lane c)) = W (ix2 c (colO k)) := by
  unfold wOrigin
  refine (transpose_apply [1, 0] _ transposes_S128x128_S128x128_1_0 (ix2 k (lane c)) (ix2 (lane c) k) (fun d => match d with
    | ⟨0, _⟩ => rfl
    | ⟨1, _⟩ => rfl)).trans ?_
  refine (pad_apply_of_inside ![0, 0] ![1, 0] ![0, 0] _ padValue pads_S127x128_S128x128_010_000 h_S_ (ix2 (lane c) k) (ix2 c k) (fun d => match d with
    | ⟨0, _⟩ => by show c.val = 0 + c.val * (0 + 1); omega
    | ⟨1, _⟩ => by show k.val = 0 + k.val * (0 + 1); omega)).trans ?_
  exact extractStridedSlice_apply ![0, 0] W slices_S127x320_S127x128_0_0 (ix2 c k) (ix2 c (colO k)) (fun d => match d with
    | ⟨0, _⟩ => by show c.val = 0 + c.val; omega
    | ⟨1, _⟩ => by show k.val = 0 + k.val; omega)

theorem wDest_apply (W : FVec Ideal S127x320 .f32) (k : Fin 128) (c : Fin 127) : wDest W (ix2 k (lane c)) = W (ix2 c (colD k)) := by
  unfold wDest
  refine (transpose_apply [1, 0] _ transposes_S128x128_S128x128_1_0 (ix2 k (lane c)) (ix2 (lane c) k) (fun d => match d with
    | ⟨0, _⟩ => rfl
    | ⟨1, _⟩ => rfl)).trans ?_
  refine (pad_apply_of_inside ![0, 0] ![1, 0] ![0, 0] _ padValue pads_S127x128_S128x128_010_000 h_S_ (ix2 (lane c) k) (ix2 c k) (fun d => match d with
    | ⟨0, _⟩ => by show c.val = 0 + c.val * (0 + 1); omega
    | ⟨1, _⟩ => by show k.val = 0 + k.val * (0 + 1); omega)).trans ?_
  exact extractStridedSlice_apply ![0, 128] W slices_S127x320_S127x128_0_128 (ix2 c k) (ix2 c (colD k)) (fun d => match d with
    | ⟨0, _⟩ => by show c.val = 0 + c.val; omega
    | ⟨1, _⟩ => by show 128 + k.val = 128 + k.val; omega)

theorem wDis_apply (W : FVec Ideal S127x320 .f32) (k : Fin 64) (c : Fin 127) : wDis W (ix2 k (lane c)) = W (ix2 c (colDis k)) := by
  unfold wDis
  refine (transpose_apply [1, 0] _ transposes_S128x64_S64x128_1_0 (ix2 k (lane c)) (ix2 (lane c) k) (fun d => match d with
    | ⟨0, _⟩ => rfl
    | ⟨1, _⟩ => rfl)).trans ?_
  refine (pad_apply_of_inside ![0, 0] ![1, 0] ![0, 0] _ padValue pads_S127x64_S128x64_010_000 h_S_ (ix2 (lane c) k) (ix2 c k) (fun d => match d with
    | ⟨0, _⟩ => by show c.val = 0 + c.val * (0 + 1); omega
    | ⟨1, _⟩ => by show k.val = 0 + k.val * (0 + 1); omega)).trans ?_
  exact extractStridedSlice_apply ![0, 256] W slices_S127x320_S127x64_0_256 (ix2 c k) (ix2 c (colDis k)) (fun d => match d with
    | ⟨0, _⟩ => by show c.val = 0 + c.val; omega
    | ⟨1, _⟩ => by show 256 + k.val = 256 + k.val; omega)

theorem bias128_apply (b : FVec Ideal S127 .f32) (c : Fin 127) : bias128 b (ix1 (lane c)) = b (ix1 c) := by
  unfold bias128
  exact pad_apply_of_inside ![0] ![1] ![0] b padValue pads_S127_S128_010 h_S_ (ix1 (lane c)) (ix1 c) (fun d => match d with
    | ⟨0, _⟩ => by show c.val = 0 + c.val * (0 + 1); omega)

theorem hd_l0 (i : S1024x128.Idx) (q : DotDims.contr hd |>.Idx) : (DotDims.lhsIdx hd i q 0).val = (i 0).val := by
  unfold DotDims.lhsIdx
  rw [dif_neg (show ¬(0 : Fin S1024x128.rank) ∈ DotDims.lhsBatch hd by decide),
    dif_pos (show (0 : Fin S1024x128.rank) ∈ DotDims.lhsNonContracting hd by decide)]
  rfl
theorem hd_l1 (i : S1024x128.Idx) (q : DotDims.contr hd |>.Idx) : (DotDims.lhsIdx hd i q 1).val = (q ⟨0, by decide⟩).val :=
  DotDims.lhsIdx_val_of_single hd rfl i q
theorem hd_r0 (i : S1024x128.Idx) (q : DotDims.contr hd |>.Idx) : (DotDims.rhsIdx hd i q 0).val = (q ⟨0, by decide⟩).val :=
  DotDims.rhsIdx_val_of_single hd rfl i q
theorem hd_r1 (i : S1024x128.Idx) (q : DotDims.contr hd |>.Idx) : (DotDims.rhsIdx hd i q 1).val = (i 1).val := by
  unfold DotDims.rhsIdx
  rw [dif_neg (show ¬(1 : Fin S128x128.rank) ∈ DotDims.rhsBatch hd by decide),
    dif_pos (show (1 : Fin S128x128.rank) ∈ DotDims.rhsNonContracting hd by decide)]
  rfl

/-- A projection at (n, l): the sum over the 128 embedding features. -/
theorem project_apply (e : FVec Ideal S1024x128 .f32) (w : FVec Ideal S128x128 .f32) (n : Fin 1024) (l : Fin 128) :
    project e w (ix2 n l) = ∑ k : Fin 128, e (ix2 n k) * w (ix2 k l) := by
  unfold project
  exact (Ideal.dotGeneral_apply hd (some .fp32) .single e w (ix2 n l)).trans
    (PlainMatmul.contr_sum hd rfl rfl hd_l0 hd_l1 hd_r0 hd_r1 e w n l)

/-! ### The arrays as the region finds them -/

variable (m : (ℓ : Loc nD τ sig) → Buf (Elt Ideal) ℓ)

/-- The origin projection. -/
theorem found_oProj (c : Dev nD) : (V m c main_v8 : S1024x128.Idx → EReal)
    = project (m ((c : Thread nD τ).loc main_arg0)) (wOrigin (m ((c : Thread nD τ).loc main_arg3))) := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

/-- The destination projection. -/
theorem found_dProj (c : Dev nD) : (V m c main_v10 : S1024x128.Idx → EReal)
    = project (m ((c : Thread nD τ).loc main_arg1)) (wDest (m ((c : Thread nD τ).loc main_arg3))) := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

/-- The distance weights. -/
theorem found_wDis (c : Dev nD) : (V m c main_v11 : S64x128.Idx → EReal) = wDis (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

/-- The padded bias. -/
theorem found_bias (c : Dev nD) : (V m c main_v6 : S128.Idx → EReal) = bias128 (m ((c : Thread nD τ).loc main_arg4)) := by
  dsimp only [Gen.V]
  simp only [Gen.hostOps0, Gen.hostOps0_1, Gen.hostOps0_2, Gen.hostOps0_3, Gen.hostOps0_4, Gen.hostOps0_5, Gen.hostOps0_6, Gen.hostOps0_7,
    Gen.hostOps0_8, List.flatten_cons, List.flatten_nil, List.append_nil, List.cons_append, List.nil_append]
  after_results
  rfl

end Cert.KernelIdeal.HostSide

end
-- ==== Proof.BlocksToArray.lean ====
/-
  From grid points to the whole result array.

  Grid point (P, Q) of the 8 × 8 grid works on origin rows 128·P … 128·P + 127 and destination rows
  128·Q … 128·Q + 127: it is handed block P of the origin projection, block Q of the destination
  projection, block (P, Q) of the distances, the whole distance weights and the whole bias, and it writes
  block (P, Q) of the result. Entry (a, b, c) of what it writes is therefore the specification's score
  of the pair (128·P + a, 128·Q + b) in channel c; the 64 blocks tile the result array, so after the run
  the array is the specification's.
-/
import proofs.«161568_j12833362280639_2_alg».proof.Proof.Gen.KernelIdeal.Value
import proofs.«161568_j12833362280639_2_alg».proof.Proof.PairwiseSpec
import proofs.«161568_j12833362280639_2_alg».proof.Proof.BodyReading
import proofs.«161568_j12833362280639_2_alg».proof.Proof.HostProjections
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.PairwiseSilu Cert.KernelIdeal.Body Cert.KernelIdeal.HostSide
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ### One entry of one block, over plain vectors -/

/-- If the body's five inputs hold, at the entries entry (a, b, c) depends on, what the specification reads for
    the pair (p, q) in channel c — the two projections as sums against prepared weights wO, wD that are W's origin
    and destination blocks in channel c — the body stores that pair's score. -/
theorem block_entry (dis : Vec Ideal S128x128x64 .f32) (w : Vec Ideal S64x128 .f32) (op dp : Vec Ideal S128x128 .f32)
    (bias : Vec Ideal S128 .f32) (o d : FVec Ideal S1024x128 .f32) (disA : FVec Ideal S1024x1024x64 .f32)
    (W : FVec Ideal S127x320 .f32) (bvec : FVec Ideal S127 .f32) (wO wD : FVec Ideal S128x128 .f32)
    (p q : Fin 1024) (a b : Fin 128) (c : Fin 127)
    (hdis : ∀ k : Fin 64, dis (ix3 a b k) = disA (ix3 p q k))
    (hw : ∀ k : Fin 64, w (ix2 k (lane c)) = W (ix2 c (colDis k)))
    (hop : op (ix2 a (lane c)) = ∑ k : Fin 128, o (ix2 p k) * wO (ix2 k (lane c)))
    (hwO : ∀ k : Fin 128, wO (ix2 k (lane c)) = W (ix2 c (colO k)))
    (hdp : dp (ix2 b (lane c)) = ∑ k : Fin 128, d (ix2 q k) * wD (ix2 k (lane c)))
    (hwD : ∀ k : Fin 128, wD (ix2 k (lane c)) = W (ix2 c (colD k)))
    (hb : bias (ix1 (lane c)) = bvec (ix1 c)) :
    k0_pay1 (F := Ideal) dis w op dp bias (ix3 a b c) = scores o d disA W bvec (ix3 p q c) := by
  rw [stored_apply, scores_apply, hop, hdp, hb]
  unfold preact
  simp only [hdis, hw, hwO, hwD]

/-! ### Where the windows sit at a grid point -/

/-- The block indices of the six windows at point t, in terms of the result window's (P, Q, 0). -/
theorem placement : ∀ t : Fin cfg0.N,
    win0_0.index t (0 : Fin 2) = win0_5.index t (0 : Fin 3) ∧ win0_0.index t (1 : Fin 2) = 0
    ∧ win0_1.index t (0 : Fin 2) = win0_5.index t (1 : Fin 3) ∧ win0_1.index t (1 : Fin 2) = 0
    ∧ win0_2.index t (0 : Fin 3) = win0_5.index t (0 : Fin 3) ∧ win0_2.index t (1 : Fin 3) = win0_5.index t (1 : Fin 3)
    ∧ win0_2.index t (2 : Fin 3) = 0
    ∧ win0_3.index t (0 : Fin 2) = 0 ∧ win0_3.index t (1 : Fin 2) = 0
    ∧ win0_4.index t (0 : Fin 1) = 0
    ∧ win0_5.index t (2 : Fin 3) = 0 ∧ win0_5.index t (0 : Fin 3) < 8 ∧ win0_5.index t (1 : Fin 3) < 8 :=
  (by decide +kernel : ∀ t : Fin grid0.N, _)

/-- Every (P, Q) is some point's. -/
theorem placement_onto : ∀ (q0 q1 : Fin 8), ∃ t : Fin cfg0.N, win0_5.index t = ![q0.val, q1.val, 0] :=
  (by decide +kernel : ∀ (q0 q1 : Fin 8), ∃ t : Fin grid0.N, win0_5.index t = ![q0.val, q1.val, 0])

/-! ### What a point writes back -/

abbrev spec (c : Dev nD) : FVec Ideal S1024x1024x127 .f32 :=
  scores (m ((c : Thread nD τ).loc main_arg0)) (m ((c : Thread nD τ).loc main_arg1)) (m ((c : Thread nD τ).loc main_arg2))
    (m ((c : Thread nD τ).loc main_arg3)) (m ((c : Thread nD τ).loc main_arg4))

/-- Point t writes back block t of the specification's array. -/
theorem flushed_eq (c : Dev nD) (t : Fin cfg0.N) :
    (dats m 0 c).flushed 5 t = ((cfg0.win 5).blk t).view.read (Elt Ideal) (spec m c) := by
  rw [Cert.KernelIdeal.Value.flushed5]
  unfold out0_5
  rw [View.canon_unit_zero zero3]
  simp only [View.ld_unit_zero (S := S128x128x64) zero3, View.ld_unit_zero (S := S64x128) zero2,
    View.ld_unit_zero (S := S128x128) zero2, View.ld_unit_zero (S := S128) zero1]
  obtain ⟨e00, e01, e10, e11, e20, e21, e22, e30, e31, e40, e52, l0, l1⟩ := placement t
  funext j
  show k0_pay1 (F := Ideal) (iblk m c 2 t) (iblk m c 3 t) (iblk m c 0 t) (iblk m c 1 t) (iblk m c 4 t) j
    = spec m c (((cfg0.win 5).blk t).view.emb j)
  have hj0 : (j 0).val < 128 := (j 0).isLt
  have hj1 : (j 1).val < 128 := (j 1).isLt
  have hj2 : (j 2).val < 127 := (j 2).isLt
  have hp : win0_5.index t (0 : Fin 3) * 128 + (j 0).val < 1024 := by omega
  have hq : win0_5.index t (1 : Fin 3) * 128 + (j 1).val < 1024 := by omega
  have hj : j = ix3 (n0 := 128) (n1 := 128) (n2 := 127) (j 0) (j 1) (j 2) := eq_ix3 (n0 := 128) (n1 := 128) (n2 := 127) j
  refine (congrArg (k0_pay1 (F := Ideal) (iblk m c 2 t) (iblk m c 3 t) (iblk m c 0 t) (iblk m c 1 t) (iblk m c 4 t)) hj).trans ?_
  refine (block_entry (iblk m c 2 t) (iblk m c 3 t) (iblk m c 0 t) (iblk m c 1 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    (wOrigin (m ((c : Thread nD τ).loc main_arg3))) (wDest (m ((c : Thread nD τ).loc main_arg3)))
    (⟨win0_5.index t (0 : Fin 3) * 128 + (j 0).val, hp⟩ : Fin 1024) (⟨win0_5.index t (1 : Fin 3) * 128 + (j 1).val, hq⟩ : Fin 1024)
    (j 0) (j 1) (j 2) ?_ ?_ ?_ (fun k => wOrigin_apply (m ((c : Thread nD τ).loc main_arg3)) k (j 2)) ?_
    (fun k => wDest_apply (m ((c : Thread nD τ).loc main_arg3)) k (j 2)) ?_).trans ?_
  · -- the distances: block (P, Q) of the argument
    intro k
    show V m c main_arg2 (((cfg0.win 2).blk t).view.emb (ix3 (j 0) (j 1) k)) = _
    rw [V_main_arg2]
    refine congrArg (m ((c : Thread nD τ).loc main_arg2)) (funext fun d => Fin.ext ?_)
    match d with
    | ⟨0, _⟩ => show win0_2.index t (0 : Fin 3) * 128 + 1 * (j 0).val = win0_5.index t (0 : Fin 3) * 128 + (j 0).val; omega
    | ⟨1, _⟩ => show win0_2.index t (1 : Fin 3) * 128 + 1 * (j 1).val = win0_5.index t (1 : Fin 3) * 128 + (j 1).val; omega
    | ⟨2, _⟩ => show win0_2.index t (2 : Fin 3) * 64 + 1 * k.val = k.val; omega
  · -- the distance weights: the whole prepared array
    intro k
    show V m c main_v11 (((cfg0.win 3).blk t).view.emb (ix2 k (lane (j 2)))) = _
    rw [found_wDis]
    refine Eq.trans (congrArg (wDis (m ((c : Thread nD τ).loc main_arg3))) (funext fun d => Fin.ext ?_)) (wDis_apply (m ((c : Thread nD τ).loc main_arg3)) k (j 2))
    match d with
    | ⟨0, _⟩ => show win0_3.index t (0 : Fin 2) * 64 + 1 * k.val = k.val; omega
    | ⟨1, _⟩ => show win0_3.index t (1 : Fin 2) * 128 + 1 * (j 2).val = (j 2).val; omega
  · -- the origin projection: block P of the prepared array
    show V m c main_v8 (((cfg0.win 0).blk t).view.emb (ix2 (j 0) (lane (j 2)))) = _
    rw [found_oProj]
    refine Eq.trans (congrArg (project (m ((c : Thread nD τ).loc main_arg0)) (wOrigin (m ((c : Thread nD τ).loc main_arg3)))) (funext fun d => Fin.ext ?_))
      (project_apply (m ((c : Thread nD τ).loc main_arg0)) (wOrigin (m ((c : Thread nD τ).loc main_arg3)))
        (⟨win0_5.index t (0 : Fin 3) * 128 + (j 0).val, hp⟩ : Fin 1024) (lane (j 2)))
    match d with
    | ⟨0, _⟩ => show win0_0.index t (0 : Fin 2) * 128 + 1 * (j 0).val = win0_5.index t (0 : Fin 3) * 128 + (j 0).val; omega
    | ⟨1, _⟩ => show win0_0.index t (1 : Fin 2) * 128 + 1 * (j 2).val = (j 2).val; omega
  · -- the destination projection: block Q of the prepared array
    show V m c main_v10 (((cfg0.win 1).blk t).view.emb (ix2 (j 1) (lane (j 2)))) = _
    rw [found_dProj]
    refine Eq.trans (congrArg (project (m ((c : Thread nD τ).loc main_arg1)) (wDest (m ((c : Thread nD τ).loc main_arg3)))) (funext fun d => Fin.ext ?_))
      (project_apply (m ((c : Thread nD τ).loc main_arg1)) (wDest (m ((c : Thread nD τ).loc main_arg3)))
        (⟨win0_5.index t (1 : Fin 3) * 128 + (j 1).val, hq⟩ : Fin 1024) (lane (j 2)))
    match d with
    | ⟨0, _⟩ => show win0_1.index t (0 : Fin 2) * 128 + 1 * (j 1).val = win0_5.index t (1 : Fin 3) * 128 + (j 1).val; omega
    | ⟨1, _⟩ => show win0_1.index t (1 : Fin 2) * 128 + 1 * (j 2).val = (j 2).val; omega
  · -- the bias: the whole prepared vector
    show V m c main_v6 (((cfg0.win 4).blk t).view.emb (ix1 (lane (j 2)))) = _
    rw [found_bias]
    refine Eq.trans (congrArg (bias128 (m ((c : Thread nD τ).loc main_arg4))) (funext fun d => Fin.ext ?_)) (bias128_apply (m ((c : Thread nD τ).loc main_arg4)) (j 2))
    match d with
    | ⟨0, _⟩ => show win0_4.index t (0 : Fin 1) * 128 + 1 * (j 2).val = (j 2).val; omega
  · -- the entry of the result array under entry j of block (P, Q)
    refine congrArg (spec m c) (funext fun d => Fin.ext ?_)
    match d with
    | ⟨0, _⟩ => show win0_5.index t (0 : Fin 3) * 128 + (j 0).val = win0_5.index t (0 : Fin 3) * 128 + 1 * (j 0).val; omega
    | ⟨1, _⟩ => show win0_5.index t (1 : Fin 3) * 128 + (j 1).val = win0_5.index t (1 : Fin 3) * 128 + 1 * (j 1).val; omega
    | ⟨2, _⟩ => show (j 2).val = win0_5.index t (2 : Fin 3) * 127 + 1 * (j 2).val; omega

/-! ### The blocks tile the array -/

/-- An entry of the result array lies in point t's block iff each coordinate lies in the block's range. -/
theorem mem_block (t : Fin cfg0.N) (i : S1024x1024x127.Idx) :
    i ∈ ((cfg0.win 5).blk t).view.set ↔ ∀ a : Fin 3, win0_5.index t a * S128x128x127.size a ≤ (i a).val
      ∧ (i a).val < win0_5.index t a * S128x128x127.size a + S128x128x127.size a := by
  show i ∈ ((View.whole main_v12).slice (win0_5.rect t)).set ↔ _
  rw [View.set_slice_whole, Rect.mem_set_unit]
  exact Iff.rfl

/-- Entry (p, q, c) is in the block of the point at (p / 128, q / 128). -/
theorem covered (i : S1024x1024x127.Idx) : ∃ t : Fin cfg0.N, (cfg0.win 5).flush t = true ∧ i ∈ ((cfg0.win 5).blk t).view.set := by
  have hi0 : (i 0).val < 1024 := (i 0).isLt
  have hi1 : (i 1).val < 1024 := (i 1).isLt
  have hi2 : (i 2).val < 127 := (i 2).isLt
  obtain ⟨t, ht⟩ := placement_onto ⟨(i 0).val / 128, by omega⟩ ⟨(i 1).val / 128, by omega⟩
  have q0 : win0_5.index t (0 : Fin 3) = (i 0).val / 128 := congrFun ht 0
  have q1 : win0_5.index t (1 : Fin 3) = (i 1).val / 128 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 128 ≤ (i 1).val ∧ (i 1).val < win0_5.index t (1 : Fin 3) * 128 + 128; omega
  | ⟨2, _⟩ => show win0_5.index t (2 : Fin 3) * 127 ≤ (i 2).val ∧ (i 2).val < win0_5.index t (2 : Fin 3) * 127 + 127; omega

/-! ### The array after the run, and the run -/

/-- After the last point the result array is the specification's. -/
theorem final (c : Dev nD) : (dats m 0 c).arrAt 5 cfg0.N = spec m c :=
  (dats m 0 c).arrAt_eq_of_cover 5 (spec m c) (fun t _ => flushed_eq m c t) covered

/-- Every weakly fair execution of the kernel's program ends with the result array at the specification's scores of
    the argument arrays, and the arguments as they were. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  Pairwise scores: a tiled kernel against the plain formula.

  Both programs take origin embeddings o and destination embeddings d (1024 × 128 each), pairwise distance
  features dis (1024 × 1024 × 64), a weight matrix W (127 × 320) and a bias b (127), and produce, for every
  pair (p, q) and channel c < 127,
      silu (((Σ_k dis[p,q,k] · W[c,256+k] + Σ_k o[p,k] · W[c,k]) + Σ_k d[q,k] · W[c,128+k]) + b[c]),
  silu x = x · (1 / (1 + e^(-x))).

  The reference computes the three contractions on whole arrays, broadcasts and adds. The kernel pads the
  channel axis to 128 with a zero row of weights and a zero bias, computes the two embedding projections
  once, and on an 8 × 8 grid of 128 × 128 blocks of pairs multiplies the block's distances by the distance
  weights, adds the projections' blocks and the bias, applies silu and keeps channels 0 … 126. The padded
  channel is computed and dropped; in every kept channel the two programs form the same sums in the same
  grouping, the kernel's logistic function is by definition the expansion the reference spells out, and
  the 64 blocks tile the result. No property of the inputs is used.

  PairwiseSpec states the formula; ReferenceReading reads the reference's run as the formula;
  HostProjections reads the arrays the kernel's host code prepares; BodyReading reads one stored entry of
  the kernel body; BlocksToArray places the blocks and reads the kernel's run as the formula. The frames are
  the programs' runs with the results forgotten; the idealization rewrote nothing.
-/
import proofs.«161568_j12833362280639_2_alg».proof.Defs
import proofs.«161568_j12833362280639_2_alg».proof.Proof.Gen.Kernel
import proofs.«161568_j12833362280639_2_alg».proof.Proof.Gen.Kernel.Skeleton
import proofs.«161568_j12833362280639_2_alg».proof.Proof.Gen.Kernel.Launch
import proofs.«161568_j12833362280639_2_alg».proof.Proof.Gen.Kernel.Points
import proofs.«161568_j12833362280639_2_alg».proof.Proof.Gen.Kernel.Frame
import proofs.«161568_j12833362280639_2_alg».proof.Proof.Gen.KernelIdeal
import proofs.«161568_j12833362280639_2_alg».proof.Proof.Gen.KernelIdeal.Skeleton
import proofs.«161568_j12833362280639_2_alg».proof.Proof.Gen.KernelIdeal.Launch
import proofs.«161568_j12833362280639_2_alg».proof.Proof.Gen.KernelIdeal.Points
import proofs.«161568_j12833362280639_2_alg».proof.Proof.Gen.KernelIdeal.Frame
import proofs.«161568_j12833362280639_2_alg».proof.Proof.Gen.KernelIdeal.Value
import proofs.«161568_j12833362280639_2_alg».proof.Proof.Gen.ReferenceIdeal
import proofs.«161568_j12833362280639_2_alg».proof.Proof.Gen.ReferenceIdeal.Run
import proofs.«161568_j12833362280639_2_alg».proof.Proof.Gen.ReferenceIdeal.Read
import proofs.«161568_j12833362280639_2_alg».proof.Proof.Gen.Pre_finite_inputs
import proofs.«161568_j12833362280639_2_alg».proof.Proof.PairwiseSpec
import proofs.«161568_j12833362280639_2_alg».proof.Proof.ReferenceReading
import proofs.«161568_j12833362280639_2_alg».proof.Proof.BlocksToArray
import Idealize.ShloMosaic.Adequacy
import Idealize.ShloMosaic.Init

noncomputable section

namespace Cert.Proof

open Idealize.ShloMosaic Idealize.SL.Sem

/-- The word-level kernel terminates without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the result array at the
    specification's scores of those arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Reading.stage_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
